-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S300x3 : Shape := ⟨2, ![300, 3]⟩
abbrev S1x300 : Shape := ⟨2, ![1, 300]⟩
abbrev S3 : Shape := ⟨1, ![3]⟩
abbrev S300 : Shape := ⟨1, ![300]⟩
abbrev S1 : Shape := ⟨1, ![1]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S300x3 : S_.BroadcastsInDim S300x3 (![] : Fin 0 → Fin S300x3.rank)
  reducesTo_S300x3_S_d0_1 : S300x3.ReducesTo [0, 1] S_
  bcast_S_S1x300 : S_.BroadcastsInDim S1x300 (![] : Fin 0 → Fin S1x300.rank)
  reducesTo_S1x300_S_d0_1 : S1x300.ReducesTo [0, 1] S_
  bcast_S_S3 : S_.BroadcastsInDim S3 (![] : Fin 0 → Fin S3.rank)
  reducesTo_S3_S_d0 : S3.ReducesTo [0] S_
  bcast_S_S300 : S_.BroadcastsInDim S300 (![] : Fin 0 → Fin S300.rank)
  reducesTo_S300_S_d0 : S300.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S300 .f32) (main_arg5 : FVec F S1 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S300 .f32 := Host.absf main_arg4
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S500000x2 .f32) (main_arg1 : FVec F S300x3 .f32) (main_arg2 : FVec F S1x300 .f32) (main_arg3 : FVec F S3 .f32) (main_arg4 : FVec F S300 .f32) (main_arg5 : FVec F S1 .f32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S300x3 .f32 := Host.absf main_arg1
  let main_cst_0 : FVec F S_ .f32 := constant S_ .f32 0x7F800000#32
  let main_v5 : FVec F S300x3 .f32 := broadcastInDim S300x3 ![] bcast_S_S300x3 main_cst_0
  let main_v6 : IVec S300x3 1 := cmpf .olt main_v4 main_v5
  let main_c_1 : IVec S_ 1 := constantI S_ 1 1#1
  let main_v7 : IVec S_ 1 := (fun x v => Host.reduce IntOp.andi x v reducesTo_S300x3_S_d0_1 h_S_) main_v6 main_c_1
  let main_v8 : IVec S_ 1 := andi main_v3 main_v7
  let main_v9 : FVec F S1x300 .f32 := Host.absf main_arg2
  let main_cst_2 : FVec F S_ .f32 := constant S_ .f32 0x7F800000#32
  let main_v10 : FVec F S1x300 .f32 := broadcastInDim S1x300 ![] bcast_S_S1x300 main_cst_2
  let main_v11 : IVec S1x300 1 := cmpf .olt main_v9 main_v10
  let main_c_3 : IVec S_ 1 := constantI S_ 1 1#1
  let main_v12 : IVec S_ 1 := (fun x v => Host.reduce IntOp.andi x v reducesTo_S1x300_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_v13 main_v16
-- ==== Kernel.lean ====
abbrev S500000x2 : Shape := ⟨2, ![500000, 2]⟩
abbrev S300x3 : Shape := ⟨2, ![300, 3]⟩
abbrev S1x300 : Shape := ⟨2, ![1, 300]⟩
abbrev S3 : Shape := ⟨1, ![3]⟩
abbrev S300 : Shape := ⟨1, ![300]⟩
abbrev S1 : Shape := ⟨1, ![1]⟩
abbrev S1x3 : Shape := ⟨2, ![1, 3]⟩
abbrev S300x1 : Shape := ⟨2, ![300, 1]⟩
abbrev S1x1 : Shape := ⟨2, ![1, 1]⟩
abbrev S2x500000 : Shape := ⟨2, ![2, 500000]⟩
abbrev S1x500000 : Shape := ⟨2, ![1, 500000]⟩
abbrev S2x12288 : Shape := ⟨2, ![2, 12288]⟩
abbrev S1x12288 : Shape := ⟨2, ![1, 12288]⟩
abbrev S300x12288 : Shape := ⟨2, ![300, 12288]⟩
abbrev S12288 : Shape := ⟨1, ![12288]⟩
abbrev S500000x1 : Shape := ⟨2, ![500000, 1]⟩

abbrev nBuf : Space → Nat
  | .hbm => 30
  | .vmem => 7
  | .smem => 0
  | _ => 0

abbrev bufTy : (tb : Table) → Fin (tcTables nBuf tb) → BufTy
  | .hbm, ⟨0, _⟩ => ⟨S500000x2, .f32⟩
  | .hbm, ⟨1, _⟩ => ⟨S300x3, .f32⟩
  | .hbm, ⟨2, _⟩ => ⟨S1x300, .f32⟩
  | .hbm, ⟨3, _⟩ => ⟨S3, .f32⟩
  | .hbm, ⟨4, _⟩ => ⟨S300, .f32⟩
  | .hbm, ⟨5, _⟩ => ⟨S1, .f32⟩
  | .hbm, ⟨6, _⟩ => ⟨S1x3, .f32⟩
  | .hbm, ⟨7, _⟩ => ⟨S300x3, .f32⟩
  | .hbm, ⟨8, _⟩ => ⟨S300x3, .f32⟩
  | .hbm, ⟨9, _⟩ => ⟨S300x1, .f32⟩
  | .hbm, ⟨10, _⟩ => ⟨S300x3, .f32⟩
  | .hbm, ⟨11, _⟩ => ⟨S300x3, .f32⟩
  | .hbm, ⟨12, _⟩ => ⟨S300x3, .f32⟩
  | .hbm, ⟨13, _⟩ => ⟨S1x300, .f32⟩
  | .hbm, ⟨14, _⟩ => ⟨S1x300, .f32⟩
  | .hbm, ⟨15, _⟩ => ⟨S1x1, .f32⟩
  | .hbm, ⟨16, _⟩ => ⟨S1x300, .f32⟩
  | .hbm, ⟨17, _⟩ => ⟨S1x300, .f32⟩
  | .hbm, ⟨18, _⟩ => ⟨S1x300, .f32⟩
  | .hbm, ⟨19, _⟩ => ⟨S1x1, .f32⟩
  | .hbm, ⟨20, _⟩ => ⟨S1x300, .f32⟩
  | .hbm, ⟨21, _⟩ => ⟨S1x300, .f32⟩
  | .hbm, ⟨22, _⟩ => ⟨S1x300, .f32⟩
  | .hbm, ⟨23, _⟩ => ⟨S1x300, .f32⟩
  | .hbm, ⟨24, _⟩ => ⟨S1x300, .f32⟩
  | .hbm, ⟨25, _⟩ => ⟨S1x3, .f32⟩
  | .hbm, ⟨26, _⟩ => ⟨S300x1, .f32⟩
  | .hbm, ⟨27, _⟩ => ⟨S2x500000, .f32⟩
  | .hbm, ⟨28, _⟩ => ⟨S1x500000, .f32⟩
  | .hbm, ⟨29, _⟩ => ⟨S500000x1, .f32⟩
  | .local _ .vmem, ⟨0, _⟩ => ⟨S2x12288, .f32⟩
  | .local _ .vmem, ⟨1, _⟩ => ⟨S2x12288, .f32⟩
  | .local _ .vmem, ⟨2, _⟩ => ⟨S300x3, .f32⟩
  | .local _ .vmem, ⟨3, _⟩ => ⟨S300x1, .f32⟩
  | .local _ .vmem, ⟨4, _⟩ => ⟨S1x3, .f32⟩
  | .local _ .vmem, ⟨5, _⟩ => ⟨S1x12288, .f32⟩
  | .local _ .vmem, ⟨6, _⟩ => ⟨S1x12288, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S300x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x12288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S3_S1x3_1 : S3.BroadcastsInDim S1x3 (![1] : Fin 1 → Fin S1x3.rank)
  bcast_S1x3_S300x3_0_1 : S1x3.BroadcastsInDim S300x3 (![0, 1] : Fin 2 → Fin S300x3.rank)
  bcast_S300_S300x1_0 : S300.BroadcastsInDim S300x1 (![0] : Fin 1 → Fin S300x1.rank)
  bcast_S300x1_S300x3_0_1 : S300x1.BroadcastsInDim S300x3 (![0, 1] : Fin 2 → Fin S300x3.rank)
  bcast_S300_S1x300_1 : S300.BroadcastsInDim S1x300 (![1] : Fin 1 → Fin S1x300.rank)
  bcast_S1_S1x1_0 : S1.BroadcastsInDim S1x1 (![0] : Fin 1 → Fin S1x1.rank)
  bcast_S1x1_S1x300_0_1 : S1x1.BroadcastsInDim S1x300 (![0, 1] : Fin 2 → Fin S1x300.rank)
  transposes_S1x300_S300x1_1_0 : S1x300.Transposes [1, 0] S300x1
  transposes_S500000x2_S2x500000_1_0 : S500000x2.Transposes [1, 0] S2x500000
  inb_S2x12288_S2x12288_0_0 : ∀ a, (![0, 0] : Fin 2 → Nat) a + S2x12288.size a ≤ S2x12288.size a
  h_S2x12288 : 0 < S2x12288.numel
  shapeCasts_S2x12288_S2x12288 : S2x12288.ShapeCasts S2x12288
  slices_S2x12288_o0_0_S1x12288 : S2x12288.Slices ![0, 0] S1x12288
  slices_S2x12288_o1_0_S1x12288 : S2x12288.Slices ![1, 0] S1x12288
  inb_S300x3_S300x3_0_0 : ∀ a, (![0, 0] : Fin 2 → Nat) a + S300x3.size a ≤ S300x3.size a
  h_S300x3 : 0 < S300x3.numel
  shapeCasts_S300x3_S300x3 : S300x3.ShapeCasts S300x3
  slices_S300x3_o0_0_S300x1 : S300x3.Slices ![0, 0] S300x1
  slices_S300x3_o0_1_S300x1 : S300x3.Slices ![0, 1] S300x1
  slices_S300x3_o0_2_S300x1 : S300x3.Slices ![0, 2] S300x1
  broadcasts_S300x1_S300x12288 : S300x1.Broadcasts S300x12288
  broadcasts_S1x12288_S300x12288 : S1x12288.Broadcasts S300x12288
  inb_S300x1_S300x1_0_0 : ∀ a, (![0, 0] : Fin 2 → Nat) a + S300x1.size a ≤ S300x1.size a
  h_S300x1 : 0 < S300x1.numel
  shapeCasts_S300x1_S300x1 : S300x1.ShapeCasts S300x1
  reduces_S300x12288_S12288 : S300x12288.Reduces [0] S12288
  shapeCasts_S12288_S1x12288 : S12288.ShapeCasts S1x12288
  inb_S1x3_S1x3_0_0 : ∀ a, (![0, 0] : Fin 2 → Nat) a + S1x3.size a ≤ S1x3.size a
  h_S1x3 : 0 < S1x3.numel
  shapeCasts_S1x3_S1x3 : S1x3.ShapeCasts S1x3
  slices_S1x3_o0_0_S1x1 : S1x3.Slices ![0, 0] S1x1
  broadcasts_S1x1_S1x12288 : S1x1.Broadcasts S1x12288
  slices_S1x3_o0_1_S1x1 : S1x3.Slices ![0, 1] S1x1
  slices_S1x3_o0_2_S1x1 : S1x3.Slices ![0, 2] S1x1
  inb_S1x12288_S1x12288_0_0 : ∀ a, (![0, 0] : Fin 2 → Nat) a + S1x12288.size a ≤ S1x12288.size a
  h_S1x12288 : 0 < S1x12288.numel
  shapeCasts_S1x500000_S500000x1 : S1x500000.ShapeCasts S500000x1
  dot_S1x300_S300x3_S1x3_1_0_0_1_n_n_wf : DotDims.WF S1x300 S300x3 S1x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2x12288.size a < S2x500000.size a
  hwx0_0 : ∀ i : grid0.Coords, EltTy.bits .f32 = 32 ∨ (Rect.unit (s := S2x500000) (fun a => cc0_transform_0 i a * S2x12288.size a) (fun a => (Pipeline.Clip.of (cc0_transform_0 i a) (S2x12288.size a) (S2x500000.size a)).extent (S2x12288.size a)) fun a => Pipeline.Clip.inb (Pipeline.Clip.ok_of (hstart0_0 i a))).WholeWords (EltTy.packing .f32)
  hwxs0_0 : ∀ i : grid0.Coords, EltTy.bits .f32 = 32 ∨ (Rect.unit (s := S2x12288) (fun _ => 0) (fun a => (Pipeline.Clip.of (cc0_transform_0 i a) (S2x12288.size a) (S2x500000.size a)).extent (S2x12288.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x3.size a ≤ S300x3.size a
  hwx0_1 : ∀ i : grid0.Coords, EltTy.bits .f32 = 32 ∨ (Rect.block (s := S300x3) S300x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x1.size a ≤ S300x1.size a
  hwx0_2 : ∀ i : grid0.Coords, EltTy.bits .f32 = 32 ∨ (Rect.block (s := S300x1) S300x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3.size a ≤ S1x3.size a
  hwx0_3 : ∀ i : grid0.Coords, EltTy.bits .f32 = 32 ∨ (Rect.block (s := S1x3) S1x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x12288.size a < S1x500000.size a
  hwx0_4 : ∀ i : grid0.Coords, EltTy.bits .f32 = 32 ∨ (Rect.unit (s := S1x500000) (fun a => cc0_transform_4 i a * S1x12288.size a) (fun a => (Pipeline.Clip.of (cc0_transform_4 i a) (S1x12288.size a) (S1x500000.size a)).extent (S1x12288.size a)) fun a => Pipeline.Clip.inb (Pipeline.Clip.ok_of (hstart0_4 i a))).WholeWords (EltTy.packing .f32)
  hwxs0_4 : ∀ i : grid0.Coords, EltTy.bits .f32 = 32 ∨ (Rect.unit (s := S1x12288) (fun _ => 0) (fun a => (Pipeline.Clip.of (cc0_transform_4 i a) (S1x12288.size a) (S1x500000.size a)).extent (S1x12288.size a)) fun a => (Nat.zero_add _).trans_le (Pipeline.Clip.extent_le (Pipeline.Clip.ok_of (hstart0_4 i a)))).WholeWords (EltTy.packing .f32)

variable [Facts₀]

def dot_S1x300_S300x3_S1x3_1_0_0_1_n_n : DotDims S1x300 S300x3 S1x3 where
  lhsContracting := [1]
  rhsContracting := [0]
  lhsNonContracting := [0]
  rhsNonContracting := [1]
  lhsBatch := []
  rhsBatch := []
  wf := dot_S1x300_S300x3_S1x3_1_0_0_1_n_n_wf

abbrev win0_0 : Pipeline.Window sig grid0 :=
  Pipeline.Window.ofSpecClip (Memref.whole main_v21) S2x12288.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v6) S300x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S300x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v22) S1x12288.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000x2 : Shape := ⟨2, ![500000, 2]⟩
abbrev S300x3 : Shape := ⟨2, ![300, 3]⟩
abbrev S1x300 : Shape := ⟨2, ![1, 300]⟩
abbrev S3 : Shape := ⟨1, ![3]⟩
abbrev S300 : Shape := ⟨1, ![300]⟩
abbrev S1 : Shape := ⟨1, ![1]⟩
abbrev S_ : Shape := ⟨0, ![]⟩
abbrev S500000x1 : Shape := ⟨2, ![500000, 1]⟩
abbrev S500000x3 : Shape := ⟨2, ![500000, 3]⟩
abbrev S1x3 : Shape := ⟨2, ![1, 3]⟩
abbrev S300x1 : Shape := ⟨2, ![300, 1]⟩
abbrev S1x1 : Shape := ⟨2, ![1, 1]⟩
abbrev S3x300 : Shape := ⟨2, ![3, 300]⟩
abbrev S500000x300 : Shape := ⟨2, ![500000, 300]⟩
abbrev S3x1 : Shape := ⟨2, ![3, 1]⟩

abbrev nBuf : Space → Nat
  | .hbm => 39
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S300x3, .f32⟩
  | .hbm, ⟨2, _⟩ => ⟨S1x300, .f32⟩
  | .hbm, ⟨3, _⟩ => ⟨S3, .f32⟩
  | .hbm, ⟨4, _⟩ => ⟨S300, .f32⟩
  | .hbm, ⟨5, _⟩ => ⟨S1, .f32⟩
  | .hbm, ⟨6, _⟩ => ⟨S_, .f32⟩
  | .hbm, ⟨7, _⟩ => ⟨S500000x1, .f32⟩
  | .hbm, ⟨8, _⟩ => ⟨S500000x3, .f32⟩
  | .hbm, ⟨9, _⟩ => ⟨S1x3, .f32⟩
  | .hbm, ⟨10, _⟩ => ⟨S300x3, .f32⟩
  | .hbm, ⟨11, _⟩ => ⟨S300x3, .f32⟩
  | .hbm, ⟨12, _⟩ => ⟨S300x1, .f32⟩
  | .hbm, ⟨13, _⟩ => ⟨S300x3, .f32⟩
  | .hbm, ⟨14, _⟩ => ⟨S300x3, .f32⟩
  | .hbm, ⟨15, _⟩ => ⟨S300x3, .f32⟩
  | .hbm, ⟨16, _⟩ => ⟨S1x300, .f32⟩
  | .hbm, ⟨17, _⟩ => ⟨S1x300, .f32⟩
  | .hbm, ⟨18, _⟩ => ⟨S1x1, .f32⟩
  | .hbm, ⟨19, _⟩ => ⟨S1x300, .f32⟩
  | .hbm, ⟨20, _⟩ => ⟨S1x300, .f32⟩
  | .hbm, ⟨21, _⟩ => ⟨S1x300, .f32⟩
  | .hbm, ⟨22, _⟩ => ⟨S1x1, .f32⟩
  | .hbm, ⟨23, _⟩ => ⟨S1x300, .f32⟩
  | .hbm, ⟨24, _⟩ => ⟨S1x300, .f32⟩
  | .hbm, ⟨25, _⟩ => ⟨S1x300, .f32⟩
  | .hbm, ⟨26, _⟩ => ⟨S1x300, .f32⟩
  | .hbm, ⟨27, _⟩ => ⟨S1x300, .f32⟩
  | .hbm, ⟨28, _⟩ => ⟨S1x3, .f32⟩
  | .hbm, ⟨29, _⟩ => ⟨S3x300, .f32⟩
  | .hbm, ⟨30, _⟩ => ⟨S500000x300, .f32⟩
  | .hbm, ⟨31, _⟩ => ⟨S_, .f32⟩
  | .hbm, ⟨32, _⟩ => ⟨S500000x300, .f32⟩
  | .hbm, ⟨33, _⟩ => ⟨S500000x300, .f32⟩
  | .hbm, ⟨34, _⟩ => ⟨S3x1, .f32⟩
  | .hbm, ⟨35, _⟩ => ⟨S500000x1, .f32⟩
  | .hbm, ⟨36, _⟩ => ⟨S300x1, .f32⟩
  | .hbm, ⟨37, _⟩ => ⟨S500000x1, .f32⟩
  | .hbm, ⟨38, _⟩ => ⟨S500000x1, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_cst : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S_S500000x1 : S_.BroadcastsInDim S500000x1 (![] : Fin 0 → Fin S500000x1.rank)
  concatenates_S500000x2_S500000x1_S500000x3_d1 : Shape.Concatenates [S500000x2, S500000x1] S500000x3 1
  bcast_S3_S1x3_1 : S3.BroadcastsInDim S1x3 (![1] : Fin 1 → Fin S1x3.rank)
  bcast_S1x3_S300x3_0_1 : S1x3.BroadcastsInDim S300x3 (![0, 1] : Fin 2 → Fin S300x3.rank)
  bcast_S300_S300x1_0 : S300.BroadcastsInDim S300x1 (![0] : Fin 1 → Fin S300x1.rank)
  bcast_S300x1_S300x3_0_1 : S300x1.BroadcastsInDim S300x3 (![0, 1] : Fin 2 → Fin S300x3.rank)
  bcast_S300_S1x300_1 : S300.BroadcastsInDim S1x300 (![1] : Fin 1 → Fin S1x300.rank)
  bcast_S1_S1x1_0 : S1.BroadcastsInDim S1x1 (![0] : Fin 1 → Fin S1x1.rank)
  bcast_S1x1_S1x300_0_1 : S1x1.BroadcastsInDim S1x300 (![0, 1] : Fin 2 → Fin S1x300.rank)
  transposes_S300x3_S3x300_1_0 : S300x3.Transposes [1, 0] S3x300
  bcast_S_S500000x300 : S_.BroadcastsInDim S500000x300 (![] : Fin 0 → Fin S500000x300.rank)
  transposes_S1x3_S3x1_1_0 : S1x3.Transposes [1, 0] S3x1
  transposes_S1x300_S300x1_1_0 : S1x300.Transposes [1, 0] S300x1
  dot_S1x300_S300x3_S1x3_1_0_0_1_n_n_wf : DotDims.WF S1x300 S300x3 S1x3 [1] [0] [0] [1] [] []
  dot_S500000x3_S3x300_S500000x300_1_0_0_1_n_n_wf : DotDims.WF S500000x3 S3x300 S500000x300 [1] [0] [0] [1] [] []
  dot_S500000x3_S3x1_S500000x1_1_0_0_1_n_n_wf : DotDims.WF S500000x3 S3x1 S500000x1 [1] [0] [0] [1] [] []
  dot_S500000x300_S300x1_S500000x1_1_0_0_1_n_n_wf : DotDims.WF S500000x300 S300x1 S500000x1 [1] [0] [0] [1] [] []

variable [Facts₀]

def dot_S1x300_S300x3_S1x3_1_0_0_1_n_n : DotDims S1x300 S300x3 S1x3 where
  lhsContracting := [1]
  rhsContracting := [0]
  lhsNonContracting := [0]
  rhsNonContracting := [1]
  lhsBatch := []
  rhsBatch := []
  wf := dot_S1x300_S300x3_S1x3_1_0_0_1_n_n_wf
def dot_S500000x3_S3x300_S500000x300_1_0_0_1_n_n : DotDims S500000x3 S3x300 S500000x300 where
  lhsContracting := [1]
  rhsContracting := [0]
  lhsNonContracting := [0]
  rhsNonContracting := [1]
  lhsBatch := []
  rhsBatch := []
  wf := dot_S500000x3_S3x300_S500000x300_1_0_0_1_n_n_wf
def dot_S500000x3_S3x1_S500000x1_1_0_0_1_n_n : DotDims S500000x3 S3x1 S500000x1 where
  lhsContracting := [1]
  rhsContracting := [0]
  lhsNonContracting := [0]
  rhsNonContracting := [1]
  lhsBatch := []
  rhsBatch := []
  wf := dot_S500000x3_S3x1_S500000x1_1_0_0_1_n_n_wf
def dot_S500000x300_S300x1_S500000x1_1_0_0_1_n_n : DotDims S500000x300 S300x1 S500000x1 where
  lhsContracting := [1]
  rhsContracting := [0]
  lhsNonContracting := [0]
  rhsNonContracting := [1]
  lhsBatch := []
  rhsBatch := []
  wf := dot_S500000x300_S300x1_S500000x1_1_0_0_1_n_n_wf

class Facts : Prop extends Facts₀ where

variable [Facts]
-- ==== Proof.KernelBody.lean ====
/-
  The body of the kernel, run once on whole staging buffers.

  One grid point handles one tile of 12288 batch columns.  The body reads the tile of the transposed
  input (two rows: the two features of every batch element of the tile), the three small weight
  arrays, and the output tile (a read whose value it never uses); it then stores, over the whole output
  tile, one value computed from the four inputs it read.  This module states exactly that as a
  separation-logic triple, for ANY contents of the five buffers and at any float instance: the four
  inputs are handed back as they were, and the output tile holds the stored value, written `tileOut`.
  Nothing is said here about what `tileOut` is arithmetically; that is read off at an index elsewhere.
-/
import proofs.«155997_j13434657702173_2_alg».proof.Proof.Gen.Kernel.Frame
import proofs.«155997_j13434657702173_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its whole buffer -/

abbrev rX : Rect S2x12288 := Rect.unit (s := S2x12288) ![0, 0] S2x12288.size inb_S2x12288_S2x12288_0_0
abbrev rW21 : Rect S300x3 := Rect.unit (s := S300x3) ![0, 0] S300x3.size inb_S300x3_S300x3_0_0
abbrev rW32 : Rect S300x1 := Rect.unit (s := S300x1) ![0, 0] S300x1.size inb_S300x1_S300x1_0_0
abbrev rW31 : Rect S1x3 := Rect.unit (s := S1x3) ![0, 0] S1x3.size inb_S1x3_S1x3_0_0
abbrev rOut : Rect S1x12288 := Rect.unit (s := S1x12288) ![0, 0] S1x12288.size inb_S1x12288_S1x12288_0_0

/-- What the output tile holds after the body, from what the four input buffers hold: the one stored
    value, laid over the whole tile. -/
def tileOut (x : Vec F S2x12288 .f32) (w21 : Vec F S300x3 .f32) (w32 : Vec F S300x1 .f32) (w31 : Vec F S1x3 .f32) :
    Vec F S1x12288 .f32 :=
  View.canon [⟨rOut, k0_pay1 (View.ld x rX) (View.ld w21 rW21) (View.ld w32 rW32) (View.ld w31 rW31)⟩]

/-- The one store covers the output tile. -/
theorem tileOut_cover (p : Vec F S1x12288 .f32) (y : S1x12288.Idx) :
    ∃ pc ∈ ([⟨rOut, p⟩] : List (View.Piece (Elt F) S1x12288 .f32)), y ∈ pc.1.set :=
  View.cover_of_tiled [⟨rOut, p⟩] S1x12288.size (by rfl) y

set_option maxHeartbeats 1000000 in
/-- The body's triple: four whole loads of the inputs, a load of the output tile whose value is dropped,
    one whole store. -/
theorem sound_kernel (c : Dev nD) (E : Set ℕ) (i : grid0.Coords)
    (arg1 : Memref sig .tc .vmem S2x12288 .f32) (harg1 : arg1.IsWhole) (arg2 : Memref sig .tc .vmem S300x3 .f32) (harg2 : arg2.IsWhole)
    (arg3 : Memref sig .tc .vmem S300x1 .f32) (harg3 : arg3.IsWhole) (arg4 : Memref sig .tc .vmem S1x3 .f32) (harg4 : arg4.IsWhole)
    (arg5 : Memref sig .tc .vmem S1x12288 .f32) (harg5 : arg5.IsWhole)
    (x : Vec F S2x12288 .f32) (w21 : Vec F S300x3 .f32) (w32 : Vec F S300x1 .f32) (w31 : Vec F S1x3 .f32) (K : PUnit → sProp 𝕄) :
    iprop(owns (c : Thread nD τ) arg1 fullShare x ∗ owns (c : Thread nD τ) arg2 fullShare w21 ∗ owns (c : Thread nD τ) arg3 fullShare w32
        ∗ owns (c : Thread nD τ) arg4 fullShare w31 ∗ (∃ d, owns (c : Thread nD τ) arg5 fullShare d)
        ∗ (iprop(owns (c : Thread nD τ) arg1 fullShare x ∗ owns (c : Thread nD τ) arg2 fullShare w21 ∗ owns (c : Thread nD τ) arg3 fullShare w32
            ∗ owns (c : Thread nD τ) arg4 fullShare w31 ∗ owns (c : Thread nD τ) arg5 fullShare (tileOut x w21 w32 w31)) -∗ K ⟨⟩))
      ⊢ wp frame (wpE (defs₀ (F := F)) Variants.none c none) E
          (cc0__mlp_kernel i arg1 harg1 arg2 harg2 arg3 harg3 arg4 harg4 arg5 harg5) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tileOut_cover _)

end Cert.Kernel.Body

end
-- ==== Proof.KernelFrame.lean ====
/-
  The frame of the word-level program: it runs to the end, nothing faults, and the six argument arrays
  end as they began.

  Nothing here says what the kernel computes.  At every grid point the body is handed its five staging
  buffers at contents nobody names and hands them back at contents nobody names: four whole loads of
  buffers it owns, a whole load of the output tile, one whole store into it.  The last tile of the
  batch axis overhangs the array (500000 is not a multiple of 12288), so after the clipped fetch part of
  the input buffer holds words nothing describes, and the stored tile is computed from them; for the
  frame that does not matter, because no argument array is a window of the pipeline: the six arguments
  are read only by the host operations before the region, and neither the region nor the reshape that
  follows it writes them.
-/
import proofs.«155997_j13434657702173_2_alg».proof.Proof.KernelBody

set_option maxRecDepth 16384

noncomputable section

namespace Cert.Kernel.FrameRun

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window's staging buffer is left undescribed. -/
def forgetsAll : Fin 5 → Bool := fun _ => true

/-- Proof data that names nothing: the arrays as the region finds them, every buffer's contents after the
    body left unnamed, the class's invariant, full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`: every staging buffer at some contents, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d))

/-- and what it returns: the same. -/
def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ d0 d1 d2 d3 _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  iexists _; iexact H4

/-- The body obligation with every window forgotten. -/
theorem body_obligation (c : Dev nD) :
    BodyObligationLoose (dats (F := F) m 0 c) (defs₀ (F := F)) Variants.none () Set.univ forgetsAll := fun t => by
  rw [bigSep_W0, bigSep_W0]
  exact sound_body m c t

/-- The one buffer the reshape after the region writes. -/
abbrev tailWrites : Finset (Ref sig .tc) := {main_v23}

theorem sfx_T : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (Proc.devRef_injective _ hb)

set_option backward.isDefEq.respectTransparency.types false in
/-- Every weakly fair execution of @main terminates, and every unscoped buffer that is neither an array of
    the pipeline nor the reshape's result ends at what it held when the region was entered. -/
theorem run_main : θ_run defs (onTc (τ := τ) (main (F := F))) (s₀ m ρ)
    (Pipeline.RDat.FramePostR cfg0 (fun c => (dats m 0 c).toRForget forgetsAll) tailWrites (V m)) :=
  Pipeline.RDat.θ_run_frame_around_T cfgs (0 : Fin 1) launch0 defs₀ Variants.none
    (fun c => (dats m 0 c).toRForget forgetsAll) tailWrites m ρ main
    (hbody := fun c => (body_obligation m c).toRForget)
    (hshare := fun c => ((dats m 0 c).toRForget forgetsAll).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- The frame: the six argument arrays are among those buffers, and the host operations before the region
    do not write them either. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     ((h c).2 main_arg4 (Finset.mem_sdiff.mpr ⟨Pipeline.mem_restRefs_of main_arg4 (by decide) (by decide), by decide⟩)).trans (V_main_arg4 m c),
     ((h c).2 main_arg5 (Finset.mem_sdiff.mpr ⟨Pipeline.mem_restRefs_of main_arg5 (by decide) (by decide), by decide⟩)).trans (V_main_arg5 m c)⟩)
    (run_main m ρ)

end Cert.Kernel.FrameRun

end
-- ==== Proof.KernelIdealBody.lean ====
/-
  The body of the kernel, run once on whole staging buffers.

  One grid point handles one tile of 12288 batch columns.  The body reads the tile of the transposed
  input (two rows: the two features of every batch element of the tile), the three small weight
  arrays, and the output tile (a read whose value it never uses); it then stores, over the whole output
  tile, one value computed from the four inputs it read.  This module states exactly that as a
  separation-logic triple, for ANY contents of the five buffers and at any float instance: the four
  inputs are handed back as they were, and the output tile holds the stored value, written `tileOut`.
  Nothing is said here about what `tileOut` is arithmetically; that is read off at an index elsewhere.
-/
import proofs.«155997_j13434657702173_2_alg».proof.Proof.Gen.KernelIdeal.Frame
import proofs.«155997_j13434657702173_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its whole buffer -/

abbrev rX : Rect S2x12288 := Rect.unit (s := S2x12288) ![0, 0] S2x12288.size inb_S2x12288_S2x12288_0_0
abbrev rW21 : Rect S300x3 := Rect.unit (s := S300x3) ![0, 0] S300x3.size inb_S300x3_S300x3_0_0
abbrev rW32 : Rect S300x1 := Rect.unit (s := S300x1) ![0, 0] S300x1.size inb_S300x1_S300x1_0_0
abbrev rW31 : Rect S1x3 := Rect.unit (s := S1x3) ![0, 0] S1x3.size inb_S1x3_S1x3_0_0
abbrev rOut : Rect S1x12288 := Rect.unit (s := S1x12288) ![0, 0] S1x12288.size inb_S1x12288_S1x12288_0_0

/-- What the output tile holds after the body, from what the four input buffers hold: the one stored
    value, laid over the whole tile. -/
def tileOut (x : Vec F S2x12288 .f32) (w21 : Vec F S300x3 .f32) (w32 : Vec F S300x1 .f32) (w31 : Vec F S1x3 .f32) :
    Vec F S1x12288 .f32 :=
  View.canon [⟨rOut, k0_pay1 (View.ld x rX) (View.ld w21 rW21) (View.ld w32 rW32) (View.ld w31 rW31)⟩]

/-- The one store covers the output tile. -/
theorem tileOut_cover (p : Vec F S1x12288 .f32) (y : S1x12288.Idx) :
    ∃ pc ∈ ([⟨rOut, p⟩] : List (View.Piece (Elt F) S1x12288 .f32)), y ∈ pc.1.set :=
  View.cover_of_tiled [⟨rOut, p⟩] S1x12288.size (by rfl) y

set_option maxHeartbeats 1000000 in
/-- The body's triple: four whole loads of the inputs, a load of the output tile whose value is dropped,
    one whole store. -/
theorem sound_kernel (c : Dev nD) (E : Set ℕ) (i : grid0.Coords)
    (arg1 : Memref sig .tc .vmem S2x12288 .f32) (harg1 : arg1.IsWhole) (arg2 : Memref sig .tc .vmem S300x3 .f32) (harg2 : arg2.IsWhole)
    (arg3 : Memref sig .tc .vmem S300x1 .f32) (harg3 : arg3.IsWhole) (arg4 : Memref sig .tc .vmem S1x3 .f32) (harg4 : arg4.IsWhole)
    (arg5 : Memref sig .tc .vmem S1x12288 .f32) (harg5 : arg5.IsWhole)
    (x : Vec F S2x12288 .f32) (w21 : Vec F S300x3 .f32) (w32 : Vec F S300x1 .f32) (w31 : Vec F S1x3 .f32) (K : PUnit → sProp 𝕄) :
    iprop(owns (c : Thread nD τ) arg1 fullShare x ∗ owns (c : Thread nD τ) arg2 fullShare w21 ∗ owns (c : Thread nD τ) arg3 fullShare w32
        ∗ owns (c : Thread nD τ) arg4 fullShare w31 ∗ (∃ d, owns (c : Thread nD τ) arg5 fullShare d)
        ∗ (iprop(owns (c : Thread nD τ) arg1 fullShare x ∗ owns (c : Thread nD τ) arg2 fullShare w21 ∗ owns (c : Thread nD τ) arg3 fullShare w32
            ∗ owns (c : Thread nD τ) arg4 fullShare w31 ∗ owns (c : Thread nD τ) arg5 fullShare (tileOut x w21 w32 w31)) -∗ K ⟨⟩))
      ⊢ wp frame (wpE (defs₀ (F := F)) Variants.none c none) E
          (cc0__mlp_kernel i arg1 harg1 arg2 harg2 arg3 harg3 arg4 harg4 arg5 harg5) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tileOut_cover _)

end Cert.KernelIdeal.Body

end
-- ==== Proof.MlpRow.lean ====
/-
  The function both programs compute, for one batch element.

  A batch element has two features `x0`, `x1`; a bias input equal to one is understood.  With the three
  weight arrays `w21` (300 hidden units, three inputs each), `w32` (one weight per hidden unit, as a column)
  and `w31` (the direct path, three inputs) the output is

      (w31₀·x0 + w31₁·x1 + w31₂)  +  Σ_k  w32_k · max (w21_{k0}·x0 + w21_{k1}·x1 + w21_{k2}, 0)

  over the extended reals.  The kernel computes it in this arrangement; the reference computes each affine
  form as a three-term dot product with the bias column of ones and writes every product the other way
  round.  `row_of_dots` is the one law that joins them: commutativity of the product, `1 · a = a`, and a sum
  over three indices written out.  None of it needs the inputs to be finite.
-/
import Idealize.ShloMosaic.PureOps.Ideal
import Idealize.ShloMosaic.Lib.ValueIdx

noncomputable section

namespace Cert.Mlp

open Idealize.ShloMosaic Idealize.ShloMosaic.ValueIdx
open scoped BigOperators

/-- Hidden unit `k` after the rectifier. -/
def hidden (w21 : (⟨2, ![300, 3]⟩ : Shape).Idx → EReal) (x0 x1 : EReal) (k : Fin 300) : EReal :=
  max (w21 (ix2 k (0 : Fin 3)) * x0 + w21 (ix2 k (1 : Fin 3)) * x1 + w21 (ix2 k (2 : Fin 3))) 0

/-- The output for one batch element. -/
def row (w21 : (⟨2, ![300, 3]⟩ : Shape).Idx → EReal) (w32 : (⟨2, ![300, 1]⟩ : Shape).Idx → EReal)
    (w31 : (⟨2, ![1, 3]⟩ : Shape).Idx → EReal) (x0 x1 : EReal) : EReal :=
  (w31 (ix2 (0 : Fin 1) (0 : Fin 3)) * x0 + w31 (ix2 (0 : Fin 1) (1 : Fin 3)) * x1 + w31 (ix2 (0 : Fin 1) (2 : Fin 3)))
    + ∑ k : Fin 300, w32 (ix2 k (0 : Fin 1)) * hidden w21 x0 x1 k

/-- The same written as the reference writes it: `xa` is the element's three inputs (two features and the one),
    every affine form a sum over the three inputs with the input as the LEFT factor, the hidden activations the
    left factor of the last product. -/
theorem row_of_dots (w21 : (⟨2, ![300, 3]⟩ : Shape).Idx → EReal) (w32 : (⟨2, ![300, 1]⟩ : Shape).Idx → EReal)
    (w31 : (⟨2, ![1, 3]⟩ : Shape).Idx → EReal) (x0 x1 : EReal) (xa : Fin 3 → EReal)
    (h0 : xa 0 = x0) (h1 : xa 1 = x1) (h2 : xa 2 = 1) :
    (∑ q : Fin 3, xa q * w31 (ix2 (0 : Fin 1) q))
      + ∑ k : Fin 300, max (∑ q : Fin 3, xa q * w21 (ix2 k q)) 0 * w32 (ix2 k (0 : Fin 1))
    = row w21 w32 w31 x0 x1 := by
  unfold row hidden
  rw [Fin.sum_univ_three, h0, h1, h2, one_mul, mul_comm x0, mul_comm x1]
  refine congrArg _ (Finset.sum_congr rfl fun k _ => ?_)
  rw [Fin.sum_univ_three, h0, h1, h2, one_mul, mul_comm x0, mul_comm x1, mul_comm]

end Cert.Mlp

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelIdealTile.lean ====
/-
  The value the kernel stores, read at one column of the tile.

  The stored tile has one row and 12288 columns; column `j` is one batch element.  Every operation of the
  body acts column by column: the two feature rows are sliced out of the input tile, the weight columns are
  sliced out of the small arrays and broadcast along the batch axis, the products and sums are pointwise,
  and the one reduction runs over the 300 hidden units of a single column.  So the stored value at column
  `j` is the function `Mlp.row` of the two features found in column `j` of the input tile, and of nothing
  else in that tile: what the other columns hold does not enter.
-/
import proofs.«155997_j13434657702173_2_alg».proof.Proof.Gen.KernelIdeal.Skeleton
import proofs.«155997_j13434657702173_2_alg».proof.Proof.MlpRow
import proofs.«155997_j13434657702173_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx
open scoped BigOperators

/-! ## The layout operations of the body, each read at an index given by coordinates -/

/-- A weight column broadcast along the batch axis reads the column's entry. -/
theorem col300_apply (v : FVec Ideal S300x1 .f32) (h : S300x1.Broadcasts S300x12288) (k : Fin 300) (j : Fin 12288) :
    broadcastTo S300x12288 v h (ix2 k j) = v (ix2 k (0 : Fin 1)) :=
  Cert.Keepdims.broadcastTo_a1_ab_apply v h k j

/-- A feature row broadcast over the hidden units reads the row's entry. -/
theorem row300_apply (v : FVec Ideal S1x12288 .f32) (h : S1x12288.Broadcasts S300x12288) (k : Fin 300) (j : Fin 12288) :
    broadcastTo S300x12288 v h (ix2 k j) = v (ix2 (0 : Fin 1) j) :=
  broadcastTo_1b_ab_apply v h k j

/-- A single weight broadcast along the batch axis reads that weight. -/
theorem one_apply (v : FVec Ideal S1x1 .f32) (h : S1x1.Broadcasts S1x12288) (u : Fin 1) (j : Fin 12288) :
    broadcastTo S1x12288 v h (ix2 u j) = v (ix2 u (0 : Fin 1)) :=
  Cert.Keepdims.broadcastTo_a1_ab_apply v h u j

/-- Feature row `r` of the input tile. -/
theorem feat0_apply (x : FVec Ideal S2x12288 .f32) (h : S2x12288.Slices ![0, 0] S1x12288) (u : Fin 1) (j : Fin 12288) :
    extractStridedSlice S1x12288 ![0, 0] x h (ix2 u j) = x (ix2 (0 : Fin 2) j) :=
  slice2_axis0_apply 0 x h u j (0 : Fin 2) (by have := u.isLt; show 0 = 0 + u.val; omega)
theorem feat1_apply (x : FVec Ideal S2x12288 .f32) (h : S2x12288.Slices ![1, 0] S1x12288) (u : Fin 1) (j : Fin 12288) :
    extractStridedSlice S1x12288 ![1, 0] x h (ix2 u j) = x (ix2 (1 : Fin 2) j) :=
  slice2_axis0_apply 1 x h u j (1 : Fin 2) (by have := u.isLt; show 1 = 1 + u.val; omega)

/-- Column `q` of the hidden layer's weights. -/
theorem w21col0_apply (w : FVec Ideal S300x3 .f32) (h : S300x3.Slices ![0, 0] S300x1) (k : Fin 300) (u : Fin 1) :
    extractStridedSlice S300x1 ![0, 0] w h (ix2 k u) = w (ix2 k (0 : Fin 3)) :=
  slice2_axis1_apply 0 w h k u (0 : Fin 3) (by have := u.isLt; show 0 = 0 + u.val; omega)
theorem w21col1_apply (w : FVec Ideal S300x3 .f32) (h : S300x3.Slices ![0, 1] S300x1) (k : Fin 300) (u : Fin 1) :
    extractStridedSlice S300x1 ![0, 1] w h (ix2 k u) = w (ix2 k (1 : Fin 3)) :=
  slice2_axis1_apply 1 w h k u (1 : Fin 3) (by have := u.isLt; show 1 = 1 + u.val; omega)
theorem w21col2_apply (w : FVec Ideal S300x3 .f32) (h : S300x3.Slices ![0, 2] S300x1) (k : Fin 300) (u : Fin 1) :
    extractStridedSlice S300x1 ![0, 2] w h (ix2 k u) = w (ix2 k (2 : Fin 3)) :=
  slice2_axis1_apply 2 w h k u (2 : Fin 3) (by have := u.isLt; show 2 = 2 + u.val; omega)

/-- Entry `q` of the direct path's weights. -/
theorem w31e0_apply (w : FVec Ideal S1x3 .f32) (h : S1x3.Slices ![0, 0] S1x1) (u v : Fin 1) :
    extractStridedSlice S1x1 ![0, 0] w h (ix2 u v) = w (ix2 u (0 : Fin 3)) :=
  slice2_axis1_apply 0 w h u v (0 : Fin 3) (by have := v.isLt; show 0 = 0 + v.val; omega)
theorem w31e1_apply (w : FVec Ideal S1x3 .f32) (h : S1x3.Slices ![0, 1] S1x1) (u v : Fin 1) :
    extractStridedSlice S1x1 ![0, 1] w h (ix2 u v) = w (ix2 u (1 : Fin 3)) :=
  slice2_axis1_apply 1 w h u v (1 : Fin 3) (by have := v.isLt; show 1 = 1 + v.val; omega)
theorem w31e2_apply (w : FVec Ideal S1x3 .f32) (h : S1x3.Slices ![0, 2] S1x1) (u v : Fin 1) :
    extractStridedSlice S1x1 ![0, 2] w h (ix2 u v) = w (ix2 u (2 : Fin 3)) :=
  slice2_axis1_apply 2 w h u v (2 : Fin 3) (by have := v.isLt; show 2 = 2 + v.val; omega)

/-- The sum over the hidden units, kept as a row: at column `j` the sum over `k` of the summand at `(k, j)`. -/
theorem hiddenSum_apply (src : FVec Ideal S300x12288 .f32) (h : S300x12288.Reduces [0] S12288)
    (hφ : FKind.Formats .f32) (hacc : (0x00000000#32 : BitVec 32) = 0x00000000#32)
    (hc : S12288.ShapeCasts S1x12288) (u : Fin 1) (j : Fin 12288) :
    shapeCast S1x12288 (multiReduction .add [0] S12288 src 0x00000000#32 h hφ hacc) hc (ix2 u j)
      = ∑ k : Fin 300, src (ix2 k j) := by
  refine (shapeCast_a_1a_apply _ hc u j).trans ?_
  refine (Ideal.multiReduction_add_single src 0x00000000#32 h hφ hacc (ix1 j)).trans ?_
  show ∑ k : Fin 300, src (h.lift (ix1 j) k) = _
  refine Finset.sum_congr rfl fun k _ => congrArg src ?_
  funext a
  match a with
  | ⟨0, _⟩ => rfl
  | ⟨1, _⟩ => rfl

/-! ## The stored value at a column -/

/-- Column `j` of the stored tile is `Mlp.row` of the two features in column `j` of the input tile. -/
theorem stored_apply (x : Vec Ideal S2x12288 .f32) (w21 : Vec Ideal S300x3 .f32) (w32 : Vec Ideal S300x1 .f32)
    (w31 : Vec Ideal S1x3 .f32) (u : Fin 1) (j : Fin 12288) :
    k0_pay1 (F := Ideal) x w21 w32 w31 (ix2 u j)
      = Cert.Mlp.row w21 w32 w31 (x (ix2 (0 : Fin 2) j)) (x (ix2 (1 : Fin 2) j)) := by
  have hu : u = 0 := Subsingleton.elim _ _
  subst hu
  unfold k0_pay1 Cert.Mlp.row Cert.Mlp.hidden
  simp only [shapeCast_self, addf_apply, mulf_apply,
    one_apply, feat0_apply, feat1_apply, w31e0_apply, w31e1_apply, w31e2_apply]
  refine congrArg _ ((hiddenSum_apply _ _ _ _ _ 0 j).trans ?_)
  refine Finset.sum_congr rfl fun k _ => ?_
  simp only [addf_apply, mulf_apply, maximumf_apply, broadcast_apply, col300_apply, row300_apply,
    feat0_apply, feat1_apply, w21col0_apply, w21col1_apply, w21col2_apply, Ideal.ofBits_def, Ideal.ofBits_zero_f32]

end Cert.KernelIdeal.Tile

end
-- ==== Proof.KernelIdealBlocks.lean ====
/-
  The tiles of the batch axis, and what a grid point reads and stores on them.

  The batch axis has 500000 elements and is cut into 41 tiles of 12288; tile `t` starts at element
  `12288·t`.  Forty tiles lie inside the array; the last one overhangs it: only its first
  `500000 − 40·12288 = 8480` columns are elements of the batch.  A fetch of a tile brings in the columns that
  exist and leaves the rest of the buffer at words nobody names; a write-back writes only the columns that exist.

  `inTile t` is the input tile with the columns that do not exist set to zero.  On the columns that exist it
  is what any fetched buffer holds (`found_apply`), whatever the rest of that buffer holds; and since the body
  works column by column (`tileOut_apply`), the stored tile on the columns that exist is a function of
  `inTile t` alone.
-/
import proofs.«155997_j13434657702173_2_alg».proof.Proof.KernelIdealBody
import proofs.«155997_j13434657702173_2_alg».proof.Proof.KernelIdealTile

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The index maps and the cuts, decided over the 41 points: the input and output tiles of point `t` are tile
    `t` of the batch axis, all of the other axis, and both are cut to the columns that exist. -/
theorem grid_facts : ∀ t : Fin cfg0.N,
    win0_0.index t (0 : Fin 2) = 0 ∧ win0_0.index t (1 : Fin 2) = t.val
    ∧ win0_4.index t (0 : Fin 2) = 0 ∧ win0_4.index t (1 : Fin 2) = t.val
    ∧ win0_0.xsize (grid0.coords t) (0 : Fin 2) = 2
    ∧ win0_4.xsize (grid0.coords t) (0 : Fin 2) = 1
    ∧ win0_0.xsize (grid0.coords t) (1 : Fin 2) = win0_4.xsize (grid0.coords t) (1 : Fin 2)
    ∧ win0_4.xsize (grid0.coords t) (1 : Fin 2) = (if (t.val + 1) * 12288 ≤ 500000 then 12288 else 500000 - t.val * 12288) :=
  (by decide +kernel : ∀ t : Fin grid0.N, _)

/-- The weight windows' one block is the whole array, at every point. -/
theorem weight_facts : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A column of tile `t` that is among those the transfers move is an element of the batch. -/
theorem col_inb (t : Fin cfg0.N) (j : Nat) (hj : j < win0_4.xsize (grid0.coords t) (1 : Fin 2)) :
    t.val * 12288 + j < 500000 := by
  obtain ⟨-, -, -, -, -, -, -, e⟩ := grid_facts t
  rw [e] at hj
  split at hj <;> omega

/-- The input tile of point `t`: the two features of the batch elements `12288·t + j`, and zero past the end. -/
def inTile (c : Dev nD) (t : Fin cfg0.N) : S2x12288.Idx → Elt Ideal .f32 := fun y =>
  if h : t.val * 12288 + (y 1).val < 500000 then V m c main_v21 (ix2 (y 0) ⟨t.val * 12288 + (y 1).val, h⟩) else (0 : EReal)

/-- On the columns that exist it is the block the fetch reads. -/
theorem cut_inTile (c : Dev nD) (t : Fin cfg0.N) :
    win0_0.cut (grid0.coords t) (inTile m c t) = iblk m c 0 t := by
  funext j
  obtain ⟨e0, e1, -, -, -, -, e6, -⟩ := grid_facts t
  have hj1 : (j 1).val < win0_4.xsize (grid0.coords t) (1 : Fin 2) := e6 ▸ (j 1).isLt
  have hb := col_inb t (j 1).val hj1
  show inTile m c t (win0_0.xinj (grid0.coords t) j) = V m c main_v21 (((cfg0.win 0).blk t).view.emb j)
  unfold inTile
  rw [dif_pos (show t.val * 12288 + ((win0_0.xinj (grid0.coords t) j) 1).val < 500000 from hb)]
  have e : (ix2 ((win0_0.xinj (grid0.coords t) j) 0) ⟨t.val * 12288 + ((win0_0.xinj (grid0.coords t) j) 1).val, hb⟩ : S2x500000.Idx)
      = ((cfg0.win 0).blk t).view.emb j := by
    funext a; apply Fin.ext
    match a with
    | ⟨0, _⟩ => show (j 0).val = win0_0.index t (0 : Fin 2) * 2 + 1 * (j 0).val; omega
    | ⟨1, _⟩ => show t.val * 12288 + (j 1).val = win0_0.index t (1 : Fin 2) * 12288 + 1 * (j 1).val; omega
  rw [e]

/-- Two fillings of one block agree wherever the transfer moves. -/
theorem fill_moved (i : grid0.Coords) (d d' : S2x12288.Idx → Elt Ideal .f32)
    (g : (win0_0.xblock i).Idx → Elt Ideal .f32) (y : S2x12288.Idx) (hm : win0_0.moved i y = true) :
    win0_0.fill i d g y = win0_0.fill i d' g y := by
  unfold Window.fill; rw [dif_pos hm, dif_pos hm]

/-- What a fetched buffer holds on a column that exists: `inTile`, whatever the rest of the buffer held. -/
theorem found_apply (c : Dev nD) (t : Fin cfg0.N) (d : S2x12288.Idx → Elt Ideal .f32) (r : Fin 2) (j : Fin 12288)
    (hj : j.val < win0_4.xsize (grid0.coords t) (1 : Fin 2)) :
    win0_0.fill (grid0.coords t) d (iblk m c 0 t) (ix2 r j) = inTile m c t (ix2 r j) := by
  obtain ⟨-, -, -, -, e4, -, e6, -⟩ := grid_facts t
  have hm : win0_0.moved (grid0.coords t) (ix2 r j) = true := (win0_0.moved_iff _ _).mpr fun a => by
    match a with
    | ⟨0, _⟩ => show r.val < win0_0.xsize (grid0.coords t) (0 : Fin 2); have := r.isLt; omega
    | ⟨1, _⟩ => show j.val < win0_0.xsize (grid0.coords t) (1 : Fin 2); omega
  rw [← cut_inTile m c t]
  exact (fill_moved _ d (inTile m c t) _ _ hm).trans (congrFun (win0_0.fill_cut _ (inTile m c t)) _)

/-- The stored tile at a column: `Mlp.row` of that column's two features. -/
theorem tileOut_apply (x : Vec Ideal S2x12288 .f32) (w21 : Vec Ideal S300x3 .f32) (w32 : Vec Ideal S300x1 .f32)
    (w31 : Vec Ideal S1x3 .f32) (u : Fin 1) (j : Fin 12288) :
    tileOut x w21 w32 w31 (ix2 u j) = Cert.Mlp.row w21 w32 w31 (x (ix2 (0 : Fin 2) j)) (x (ix2 (1 : Fin 2) j)) := by
  unfold tileOut
  rw [View.canon_unit_zero hz]
  simp only [View.ld_unit_zero (S := S2x12288) hz, View.ld_unit_zero (S := S300x3) hz, View.ld_unit_zero (S := S300x1) hz,
    View.ld_unit_zero (S := S1x3) hz]
  exact Cert.KernelIdeal.Tile.stored_apply x w21 w32 w31 u j

/-- The part of the stored tile that is written back, at its column `j`. -/
theorem cut_tileOut_apply (i : grid0.Coords) (x : Vec Ideal S2x12288 .f32) (w21 : Vec Ideal S300x3 .f32)
    (w32 : Vec Ideal S300x1 .f32) (w31 : Vec Ideal S1x3 .f32) (j : (win0_4.xblock i).Idx) :
    win0_4.cut i (tileOut x w21 w32 w31) j
      = Cert.Mlp.row w21 w32 w31 (x (ix2 (0 : Fin 2) ⟨(j 1).val, Nat.lt_of_lt_of_le (j 1).isLt (win0_4.xsize_le i 1)⟩))
          (x (ix2 (1 : Fin 2) ⟨(j 1).val, Nat.lt_of_lt_of_le (j 1).isLt (win0_4.xsize_le i 1)⟩)) := by
  show tileOut x w21 w32 w31 (win0_4.xinj i j) = _
  have e : win0_4.xinj i j = ix2 (0 : Fin 1) (⟨(j 1).val, Nat.lt_of_lt_of_le (j 1).isLt (win0_4.xsize_le i 1)⟩ : Fin 12288) := by
    funext a; apply Fin.ext
    match a with
    | ⟨0, _⟩ =>
      have h0 : ((win0_4.xinj i j) 0).val < 1 := ((win0_4.xinj i j) 0).isLt
      show ((win0_4.xinj i j) 0).val = 0; omega
    | ⟨1, _⟩ => rfl
  rw [e]
  exact tileOut_apply x w21 w32 w31 0 _

end Cert.KernelIdeal.Blocks

end
-- ==== Proof.KernelIdealRun.lean ====
/-
  The run of the idealized kernel, with the contents of every buffer named.

  After the body at point `t` the input tile's buffer holds `inTile t` on the columns that exist (the rest is
  whatever the clipped fetch left), the three weight buffers hold the weight arrays, and the output tile's
  buffer holds, on the columns that exist, the stored tile computed from `inTile t`: the body works column by
  column, so what the fetch left in the other columns of the input buffer does not reach them.  With that,
  every weakly fair execution of @main terminates, nothing faults, the output array ends at the write-backs
  of those tiles, and every other buffer ends as the reshape after the region leaves it.
-/
import proofs.«155997_j13434657702173_2_alg».proof.Proof.KernelIdealBlocks

set_option maxRecDepth 16384

noncomputable section

namespace Cert.KernelIdeal.ValueRun

open Cert.KernelIdeal Cert.KernelIdeal.Gen Cert.KernelIdeal.Body Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The stored tile of point `t`, from the input tile with zeros past the end and the three weight arrays as the
    region finds them. -/
def outTile (c : Dev nD) (t : Fin cfg0.N) : S1x12288.Idx → Elt Ideal .f32 :=
  tileOut (inTile m c t) (iblk m c 1 t) (iblk m c 2 t) (iblk m c 3 t)

/-- The proof data: the arrays as the region finds them; after the body the five buffers as described above;
    the class's invariant; full shares; nothing owed. -/
def dats (_ : Fin 1) (c : Dev nD) : Dat τ (Elt Ideal) Unit ℕ (UR sig nD τ) ℕ cfg0 c where
  A w := V m c (Pipeline.arrRef spec0 w)
  after w t := match w with
    | ⟨0, _⟩ => inTile m c t
    | ⟨1, _⟩ => iblk m c 1 t
    | ⟨2, _⟩ => iblk m c 2 t
    | ⟨3, _⟩ => iblk m c 3 t
    | ⟨4, _⟩ => outTile m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = inTile m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outTile m c t := by dsimp only [dats]

/-- The input tile's buffer when the body runs: just fetched, so the block on the columns that exist and `d` on
    the others. -/
theorem before0_0 (c : Dev nD) (t : Fin cfg0.N) (d) :
    (dats m 0 c).before 0 t d = win0_0.fill (grid0.coords t) d (iblk m c 0 t) := by
  unfold Dat.before; rw [if_pos (fetch0_0 t)]; rfl
/-- The weight buffers hold the weight arrays at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What is written back of the stored tile does not depend on what the fetch left past the end. -/
theorem cut_stored (c : Dev nD) (t : Fin cfg0.N) (d : S2x12288.Idx → Elt Ideal .f32) :
    win0_4.cut (grid0.coords t) (tileOut (win0_0.fill (grid0.coords t) d (iblk m c 0 t)) (iblk m c 1 t) (iblk m c 2 t) (iblk m c 3 t))
      = win0_4.cut (grid0.coords t) (outTile m c t) := by
  funext j
  unfold outTile
  rw [cut_tileOut_apply, cut_tileOut_apply, found_apply m c t d 0 _ (j 1).isLt, found_apply m c t d 1 _ (j 1).isLt]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the two clipped windows' buffers described on the columns that exist only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        (win0_4.fill (grid0.coords t) d (win0_4.cut (grid0.coords t) ((dats m 0 c).after 4 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, cut_inTile]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists d0; iexact H0
  isplitl [H1]; · iexact H1
  isplitl [H2]; · iexact H2
  isplitl [H3]; · iexact H3
  iexists (tileOut (win0_0.fill (grid0.coords t) d0 (iblk m c 0 t)) (iblk m c 1 t) (iblk m c 2 t) (iblk m c 3 t))
  rw [← cut_stored m c t d0, Window.fill_cut]
  iexact H4

/-- The body obligation in the form the loop uses for clipped windows. -/
theorem body_obligation (c : Dev nD) :
    BodyObligationLoose (dats m 0 c) (defs₀ (F := Ideal)) Variants.none () Set.univ := fun t => by
  rw [bigSep_W0, bigSep_W0]
  exact sound_body m c t

set_option backward.isDefEq.respectTransparency.types false in
/-- Every weakly fair execution of @main terminates; every windowed array ends at its entry contents overwritten,
    in point order, by what each point writes back, every other unscoped buffer as the reshape after the region
    leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.ValueRun

end
-- ==== Proof.KernelIdealValue.lean ====
/-
  The result of the idealized kernel, element by element.

  The 41 tiles cover the batch axis, each point writes back its tile's existing columns, and column
  `12288·t + j` of the output array is `Mlp.row` of the two features of batch element `12288·t + j` — one
  function of the whole arrays, so the array the region leaves is that function.  The reshape after the
  region turns the row of 500000 values into a column.
-/
import proofs.«155997_j13434657702173_2_alg».proof.Proof.KernelIdealRun

set_option maxRecDepth 16384

noncomputable section

namespace Cert.KernelIdeal.Final

open Cert.KernelIdeal Cert.KernelIdeal.Gen Cert.KernelIdeal.Body Cert.KernelIdeal.Blocks Cert.KernelIdeal.ValueRun
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The output row as one function of the arrays the region finds: the transposed input and the three weight
    arrays. -/
def outRow (c : Dev nD) : S1x500000.Idx → Elt Ideal .f32 := fun i =>
  Cert.Mlp.row (V m c main_v6) (V m c main_v20) (V m c main_v19)
    (V m c main_v21 (ix2 (0 : Fin 2) (i 1))) (V m c main_v21 (ix2 (1 : Fin 2) (i 1)))

/-- A weight window's block is its whole array. -/
theorem iblk1_eq (c : Dev nD) (t : Fin cfg0.N) : iblk m c 1 t = V m c main_v6 := by
  funext y
  obtain ⟨e0, e1, -, -, -, -⟩ := weight_facts t
  show V m c main_v6 (((cfg0.win 1).blk t).view.emb y) = V m c main_v6 y
  have e : ((cfg0.win 1).blk t).view.emb y = y := by
    funext a; apply Fin.ext
    match a with
    | ⟨0, _⟩ => show win0_1.index t (0 : Fin 2) * 300 + 1 * (y 0).val = (y 0).val; omega
    | ⟨1, _⟩ => show win0_1.index t (1 : Fin 2) * 3 + 1 * (y 1).val = (y 1).val; omega
  rw [e]
theorem iblk2_eq (c : Dev nD) (t : Fin cfg0.N) : iblk m c 2 t = V m c main_v20 := by
  funext y
  obtain ⟨-, -, e2, e3, -, -⟩ := weight_facts t
  show V m c main_v20 (((cfg0.win 2).blk t).view.emb y) = V m c main_v20 y
  have e : ((cfg0.win 2).blk t).view.emb y = y := by
    funext a; apply Fin.ext
    match a with
    | ⟨0, _⟩ => show win0_2.index t (0 : Fin 2) * 300 + 1 * (y 0).val = (y 0).val; omega
    | ⟨1, _⟩ => show win0_2.index t (1 : Fin 2) * 1 + 1 * (y 1).val = (y 1).val; omega
  rw [e]
theorem iblk3_eq (c : Dev nD) (t : Fin cfg0.N) : iblk m c 3 t = V m c main_v19 := by
  funext y
  obtain ⟨-, -, -, -, e4, e5⟩ := weight_facts t
  show V m c main_v19 (((cfg0.win 3).blk t).view.emb y) = V m c main_v19 y
  have e : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 3 + 1 * (y 1).val = (y 1).val; omega
  rw [e]

/-- The input tile at a column that exists: the transposed input at batch element `12288·t + j`. -/
theorem inTile_apply (c : Dev nD) (t : Fin cfg0.N) (r : Fin 2) (j : Fin 12288) (h : t.val * 12288 + j.val < 500000) :
    inTile m c t (ix2 r j) = V m c main_v21 (ix2 r ⟨t.val * 12288 + j.val, h⟩) := by
  unfold inTile
  exact dif_pos h

/-- What point `t` writes back is tile `t` of `outRow`. -/
theorem flushed_eq (c : Dev nD) (t : Fin cfg0.N) :
    (dats m 0 c).flushed 4 t = ((cfg0.win 4).blk t).view.read (Elt Ideal) (outRow m c) := by
  show win0_4.cut (grid0.coords t) ((dats m 0 c).after 4 t) = _
  rw [after0_4]
  funext j
  unfold outTile
  rw [cut_tileOut_apply, iblk1_eq, iblk2_eq, iblk3_eq]
  obtain ⟨-, -, -, e3, -, -, -, -⟩ := grid_facts t
  have hb := col_inb t (j 1).val (j 1).isLt
  rw [inTile_apply m c t 0 _ hb, inTile_apply m c t 1 _ hb]
  show _ = outRow m c (((cfg0.win 4).blk t).view.emb j)
  unfold outRow
  have e : (⟨t.val * 12288 + (j 1).val, hb⟩ : Fin 500000) = (((cfg0.win 4).blk t).view.emb j) 1 :=
    Fin.ext (by show t.val * 12288 + (j 1).val = win0_4.index t (1 : Fin 2) * 12288 + 1 * (j 1).val; omega)
  rw [e]

/-- An index of the output row is in point `t`'s tile iff each coordinate is in the tile's range, cut at the
    array's end. -/
theorem mem_tile (t : Fin cfg0.N) (i : S1x500000.Idx) :
    i ∈ ((cfg0.win 4).blk t).view.set ↔ ∀ a : Fin 2, win0_4.index t a * S1x12288.size a ≤ (i a).val
      ∧ (i a).val < win0_4.index t a * S1x12288.size a + win0_4.xsize (grid0.coords t) a := by
  show i ∈ ((View.whole main_v22).slice (win0_4.rect t)).set ↔ _
  rw [View.set_slice_whole, Rect.mem_set_unit]
  exact Iff.rfl

/-- Every batch element lies in the tile of the point `b / 12288`. -/
theorem cover (i : S1x500000.Idx) :
    ∃ t : Fin cfg0.N, (cfg0.win 4).flush t = true ∧ i ∈ ((cfg0.win 4).blk t).view.set := by
  have hi : (i 1).val < 500000 := (i 1).isLt
  have hi0 : (i 0).val < 1 := (i 0).isLt
  have hN : grid0.N = 41 := N_0
  have hq : (i 1).val / 12288 < cfg0.N := by show _ < grid0.N; omega
  refine ⟨⟨(i 1).val / 12288, hq⟩, flush0_4 _, ?_⟩
  rw [mem_tile]
  obtain ⟨-, -, e2, e3, -, e5, -, e7⟩ := grid_facts ⟨(i 1).val / 12288, hq⟩
  intro a
  match a with
  | ⟨0, _⟩ =>
    show win0_4.index _ (0 : Fin 2) * 1 ≤ (i 0).val ∧ (i 0).val < win0_4.index _ (0 : Fin 2) * 1 + win0_4.xsize _ (0 : Fin 2)
    rw [e2, e5]; omega
  | ⟨1, _⟩ =>
    show win0_4.index _ (1 : Fin 2) * 12288 ≤ (i 1).val ∧ (i 1).val < win0_4.index _ (1 : Fin 2) * 12288 + win0_4.xsize _ (1 : Fin 2)
    rw [e3, e7]
    show (i 1).val / 12288 * 12288 ≤ (i 1).val ∧ (i 1).val < (i 1).val / 12288 * 12288 + (if ((i 1).val / 12288 + 1) * 12288 ≤ 500000 then 12288 else 500000 - (i 1).val / 12288 * 12288)
    split <;> omega

/-- The output row after the run. -/
theorem final (c : Dev nD) : (dats m 0 c).arrAt 4 cfg0.N = outRow m c :=
  (dats m 0 c).arrAt_eq_of_cover 4 (outRow m c) (fun t _ => flushed_eq m c t) cover

/-- The result buffer after the reshape that follows the region. -/
theorem tail_result (c : Dev nD) :
    Pipeline.afterTail₀ cfgs (dats m) 0 (V0 m) [hostOps1] c main_v23
      = shapeCast S500000x1 (outRow m c) shapeCasts_S1x500000_S500000x1 := by
  unfold Pipeline.afterTail₀
  show StableHlo.after hostOps1 _ (Proc.devRef .tc main_v23) = _
  after_results
  funext i
  have hw := (Pipeline.withArrays_arr spec0 launch0.win.arr_inj c (V0 m c) (fun w => (dats m 0 c).arrAt w cfg0.N) 4).trans (final m c)
  show shapeCast S500000x1 (Pipeline.withArrays spec0 c (V0 m c) (fun w => (dats m 0 c).arrAt w cfg0.N)
    (Proc.devRef .tc (Pipeline.arrRef spec0 4))) shapeCasts_S1x500000_S500000x1 i = _
  rw [hw]

/-- A row of `B` values recast as a column reads, at `(b, u)`, the row's entry `b`: both sit at row-major position `b`. -/
theorem rowToCol_apply {α : Type} (x : S1x500000.Idx → α) (b : Fin 500000) (u : Fin 1) :
    shapeCast S500000x1 x shapeCasts_S1x500000_S500000x1 (ix2 b u) = x (ix2 (0 : Fin 1) b) :=
  shapeCast_apply x shapeCasts_S1x500000_S500000x1 _ _ (by
    have hu : u.val = 0 := by omega
    rw [Shape.rowMajor_val_two, Shape.rowMajor_val_two]
    show 0 * 500000 + b.val = b.val * 1 + u.val
    omega)

end Cert.KernelIdeal.Final

end
-- ==== Proof.RefValue.lean ====
/-
  The reference, read at one batch element.

  The reference appends a column of ones to the input, forms the hidden pre-activations as the product of
  that [B, 3] array with the transposed hidden weights, rectifies, and adds the two products with the
  transposed direct-path weights and the output weights.  Each product contracts one axis, so at batch
  element `b` every entry is a finite sum over that axis; the appended column reads `1`; a transpose swaps
  the two coordinates.  Put together, the result at `b` is `Mlp.row` of the two features of `b`, with the
  weight arrays the reference's own host terms for them (left unopened here).
-/
import proofs.«155997_j13434657702173_2_alg».proof.Proof.Gen.ReferenceIdeal.Read
import proofs.«155997_j13434657702173_2_alg».proof.Proof.MlpRow
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The input with the column of ones appended: the two features, then one. -/
theorem xa_feat (x0 : (⟨S500000x2, .f32⟩ : BufTy).Contents (Elt Ideal)) (b : Fin 500000) (q : Fin 2) :
    val_main_v1 (F := Ideal) x0 (ix2 b (⟨q.val, by have := q.isLt; omega⟩ : Fin 3)) = x0 (ix2 b q) := by
  unfold val_main_v1
  refine concatenate_pair_apply_left 1 x0 _ concatenates_S500000x2_S500000x1_S500000x3_d1 _ rfl (ix2 b q) fun a => ?_
  match a with
  | ⟨0, _⟩ => rfl
  | ⟨1, _⟩ => rfl

theorem xa_one (x0 : (⟨S500000x2, .f32⟩ : BufTy).Contents (Elt Ideal)) (b : Fin 500000) :
    val_main_v1 (F := Ideal) x0 (ix2 b (2 : Fin 3)) = 1 := by
  unfold val_main_v1
  refine (concatenate_pair_apply_right 1 x0 _ concatenates_S500000x2_S500000x1_S500000x3_d1 _ rfl rfl (ix2 b (0 : Fin 1))
    (fun a ha => ?_) rfl).trans ?_
  · match a with
    | ⟨0, _⟩ => rfl
    | ⟨1, _⟩ => exact absurd rfl ha
  · rw [val_main_v0_apply, val_main_cst_apply]
    exact Ideal.ofBits_one_f32

/-! The index maps of the products and transposes, composed, in coordinates. -/

theorem direct_lhs (b : Fin 500000) (q : Fin 3) : lidx_main_v26 (ix2 b (0 : Fin 1)) q = ix2 b q :=
  funext fun a => Fin.ext (by match a with | ⟨0, _⟩ => rfl | ⟨1, _⟩ => rfl)
theorem direct_rhs (b : Fin 500000) (q : Fin 3) : idx_main_v25 (ridx_main_v26 (ix2 b (0 : Fin 1)) q) = ix2 (0 : Fin 1) q :=
  funext fun a => Fin.ext (by match a with | ⟨0, _⟩ => rfl | ⟨1, _⟩ => rfl)
theorem hidden_lhs (b : Fin 500000) (k : Fin 300) (q : Fin 3) :
    lidx_main_v23 (lidx_main_v28 (ix2 b (0 : Fin 1)) k) q = ix2 b q :=
  funext fun a => Fin.ext (by match a with | ⟨0, _⟩ => rfl | ⟨1, _⟩ => rfl)
theorem hidden_rhs (b : Fin 500000) (k : Fin 300) (q : Fin 3) :
    idx_main_v22 (ridx_main_v23 (lidx_main_v28 (ix2 b (0 : Fin 1)) k) q) = ix2 k q :=
  funext fun a => Fin.ext (by match a with | ⟨0, _⟩ => rfl | ⟨1, _⟩ => rfl)
theorem out_rhs (b : Fin 500000) (k : Fin 300) : ridx_main_v28 (ix2 b (0 : Fin 1)) k = ix2 k (0 : Fin 1) :=
  funext fun a => Fin.ext (by match a with | ⟨0, _⟩ => rfl | ⟨1, _⟩ => rfl)

/-- The reference's result at batch element `b`. -/
theorem result_apply (x0 : (⟨S500000x2, .f32⟩ : BufTy).Contents (Elt Ideal)) (x1 : (⟨S300x3, .f32⟩ : BufTy).Contents (Elt Ideal))
    (x2 : (⟨S1x300, .f32⟩ : BufTy).Contents (Elt Ideal)) (x3 : (⟨S3, .f32⟩ : BufTy).Contents (Elt Ideal))
    (x4 : (⟨S300, .f32⟩ : BufTy).Contents (Elt Ideal)) (x5 : (⟨S1, .f32⟩ : BufTy).Contents (Elt Ideal))
    (b : Fin 500000) (u : Fin 1) :
    val_main_v29 (F := Ideal) x0 x1 x2 x3 x4 x5 (ix2 b u)
      = Cert.Mlp.row (val_main_v8 (F := Ideal) x1 x3 x4) (val_main_v27 (F := Ideal) x2 x4 x5) (val_main_v21 (F := Ideal) x1 x2 x4 x5)
          (x0 (ix2 b (0 : Fin 2))) (x0 (ix2 b (1 : Fin 2))) := by
  have hu : u = 0 := Subsingleton.elim _ _
  subst hu
  rw [val_main_v29_apply, val_main_v26_apply, val_main_v28_apply]
  refine Eq.trans ?_ (Cert.Mlp.row_of_dots _ _ _ _ _ (fun q => val_main_v1 (F := Ideal) x0 (ix2 b q))
    (xa_feat x0 b 0) (xa_feat x0 b 1) (xa_one x0 b))
  show (∑ k : Fin 3, _) + (∑ k : Fin 300, _) = _
  congr 1
  · refine Finset.sum_congr rfl fun q _ => ?_
    rw [val_main_v25_apply, direct_lhs, direct_rhs]
  · refine Finset.sum_congr rfl fun k _ => ?_
    rw [val_main_v24_apply, val_main_v23_apply, val_main_call0_v0_apply, val_main_call0_cst_apply]
    simp only [val_main_v22_apply, Ideal.maximumf_def, Ideal.ofBits_def, Ideal.ofBits_zero_f32, hidden_lhs, hidden_rhs, out_rhs]

end Cert.ReferenceIdeal.RefValue

end
-- ==== Proof.FoundArrays.lean ====
/-
  The arrays the kernel's region finds are the reference's own intermediate values.

  Before the region the kernel's @main computes, with host operations, the three weight arrays and the
  transposed input.  The reference computes the same three weight arrays with the same operations on the same
  arguments (a difference of two scaled copies of `varphi1`; the same for `varphi2`; a product of the latter with
  `varphi1`), so what the region finds in those buffers is, term for term, what the reference's stages
  denote.  Nothing is opened: the two terms are one term.  The fourth array is the input transposed.
-/
import proofs.«155997_j13434657702173_2_alg».proof.Proof.Gen.KernelIdeal.Frame
import proofs.«155997_j13434657702173_2_alg».proof.Proof.Gen.ReferenceIdeal.Read
import Idealize.ShloMosaic.Lib.ValueLayout

set_option maxRecDepth 16384

noncomputable section

namespace Cert.Bridge

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The hidden layer's weights. -/
theorem found_w21 (c : Dev nD) :
    (V m c main_v6 : S300x3.Idx → Elt Ideal .f32)
      = Cert.ReferenceIdeal.Read.val_main_v8 (F := Ideal) (m ((c : Thread nD τ).loc main_arg1))
          (m ((c : Thread nD τ).loc main_arg3)) (m ((c : Thread nD τ).loc main_arg4)) := by
  show StableHlo.after hostOps0 (fun b => m (c, b)) (Proc.devRef .tc main_v6) = _
  after_results
  rfl

/-- The output weights, as a column. -/
theorem found_w32 (c : Dev nD) :
    (V m c main_v20 : S300x1.Idx → Elt Ideal .f32)
      = Cert.ReferenceIdeal.Read.val_main_v27 (F := Ideal) (m ((c : Thread nD τ).loc main_arg2))
          (m ((c : Thread nD τ).loc main_arg4)) (m ((c : Thread nD τ).loc main_arg5)) := by
  show StableHlo.after hostOps0 (fun b => m (c, b)) (Proc.devRef .tc main_v20) = _
  after_results
  rfl

set_option maxHeartbeats 2000000 in
/-- The direct path's weights. -/
theorem found_w31 (c : Dev nD) :
    (V m c main_v19 : S1x3.Idx → Elt Ideal .f32)
      = Cert.ReferenceIdeal.Read.val_main_v21 (F := Ideal) (m ((c : Thread nD τ).loc main_arg1))
          (m ((c : Thread nD τ).loc main_arg2)) (m ((c : Thread nD τ).loc main_arg4)) (m ((c : Thread nD τ).loc main_arg5)) := by
  show StableHlo.after hostOps0 (fun b => m (c, b)) (Proc.devRef .tc main_v19) = _
  after_results_simp <;> rfl

/-- The transposed input at feature `r` of batch element `b`. -/
theorem found_xT (c : Dev nD) (r : Fin 2) (b : Fin 500000) :
    V m c main_v21 (ix2 r b) = m ((c : Thread nD τ).loc main_arg0) (ix2 b r) := by
  have e : (V m c main_v21 : S2x500000.Idx → Elt Ideal .f32)
      = transpose S2x500000 [1, 0] (m ((c : Thread nD τ).loc main_arg0)) transposes_S500000x2_S2x500000_1_0 := by
    show StableHlo.after hostOps0 (fun b => m (c, b)) (Proc.devRef .tc main_v21) = _
    after_results
  rw [e]
  exact transpose_ix2_apply _ _ r b

end Cert.Bridge

end
-- ==== Proof.lean ====
/-
  The certificate: a two-layer perceptron with a direct path, over 500000 batch elements.

  For batch element `b` with features `x0, x1` both programs compute

      (w31₀·x0 + w31₁·x1 + w31₂)  +  Σ_k  w32_k · max (w21_{k0}·x0 + w21_{k1}·x1 + w21_{k2}, 0)

  with the three weight arrays the same host terms of the arguments in both.  The kernel works on the
  transposed input in 41 tiles of 12288 batch elements, broadcasting the weight columns against the two
  feature rows and summing over the 300 hidden units of each column; the last tile overhangs the array
  and only its existing columns are written back.  The reference forms the same affine maps as products
  with the input extended by a column of ones.  Over the extended reals the two are equal by commutativity
  of the product, `1 · a = a` and the three-term sums written out; no input needs to be finite.

  The three frames: the word-level kernel's from a run that names no contents, the idealized kernel's from
  the run that names them all, the reference's from its run.  The ideal pass rewrote nothing.
-/
import proofs.«155997_j13434657702173_2_alg».proof.Defs
import proofs.«155997_j13434657702173_2_alg».proof.Proof.Gen.Kernel
import proofs.«155997_j13434657702173_2_alg».proof.Proof.Gen.KernelIdeal
import proofs.«155997_j13434657702173_2_alg».proof.Proof.Gen.ReferenceIdeal
import proofs.«155997_j13434657702173_2_alg».proof.Proof.Gen.ReferenceIdeal.Run
import proofs.«155997_j13434657702173_2_alg».proof.Proof.Gen.ReferenceIdeal.Read
import proofs.«155997_j13434657702173_2_alg».proof.Proof.Gen.Pre_finite_inputs
import proofs.«155997_j13434657702173_2_alg».proof.Proof.KernelFrame
import proofs.«155997_j13434657702173_2_alg».proof.Proof.KernelIdealValue
import proofs.«155997_j13434657702173_2_alg».proof.Proof.RefValue
import proofs.«155997_j13434657702173_2_alg».proof.Proof.FoundArrays
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.FrameRun.frame (F := Bits) m ρ

theorem frame_ki : Cert.frame_KernelIdeal := fun m ρ _ => Cert.KernelIdeal.ValueRun.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section Algebraic

open Cert.KernelIdeal Cert.KernelIdeal.Gen Cert.KernelIdeal.ValueRun Cert.KernelIdeal.Final

variable (m : (ℓ : Loc nD τ sig) → Buf (Elt Ideal) ℓ) (ρ : Dev nD → PrngReg)

/-- The kernel's result: the output row recast as a column. -/
def result (c : Dev nD) : Buf (Elt Ideal) ((c.tc : Thread nD τ).loc main_v23) :=
  shapeCast S500000x1 (outRow m c) shapeCasts_S1x500000_S500000x1

/-- The idealized kernel's run, read at its result and at its arguments. -/
theorem kernel_run : θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v23 (Pipeline.mem_restRefs_of main_v23 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

/-- The kernel's result at batch element `b`: `Mlp.row` of its two features, over the reference's own terms for
    the three weight arrays. -/
theorem result_apply (c : Dev nD) (b : Fin 500000) (u : Fin 1) :
    result m c (ix2 b u)
      = Cert.Mlp.row
          (Cert.ReferenceIdeal.Read.val_main_v8 (F := Ideal) (m ((c : Thread nD τ).loc main_arg1))
            (m ((c : Thread nD τ).loc main_arg3)) (m ((c : Thread nD τ).loc main_arg4)))
          (Cert.ReferenceIdeal.Read.val_main_v27 (F := Ideal) (m ((c : Thread nD τ).loc main_arg2))
            (m ((c : Thread nD τ).loc main_arg4)) (m ((c : Thread nD τ).loc main_arg5)))
          (Cert.ReferenceIdeal.Read.val_main_v21 (F := Ideal) (m ((c : Thread nD τ).loc main_arg1))
            (m ((c : Thread nD τ).loc main_arg2)) (m ((c : Thread nD τ).loc main_arg4)) (m ((c : Thread nD τ).loc main_arg5)))
          (m ((c : Thread nD τ).loc main_arg0) (ix2 b (0 : Fin 2))) (m ((c : Thread nD τ).loc main_arg0) (ix2 b (1 : Fin 2))) := by
  unfold result
  rw [rowToCol_apply]
  unfold outRow
  rw [Cert.Bridge.found_w21 m c, Cert.Bridge.found_w32 m c, Cert.Bridge.found_w31 m c,
    Cert.Bridge.found_xT m c 0 b, Cert.Bridge.found_xT m c 1 b]

end Algebraic

theorem algebraic : Cert.algebraic_KernelIdeal_ReferenceIdeal := by
  intro m ρ m' ρ' _ hagree
  refine ⟨fun c => result m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq]
  funext i
  obtain ⟨b, u, rfl⟩ : ∃ (b : Fin 500000) (u : Fin 1), i = ix2 b u := ⟨i 0, i 1, eq_ix2 i⟩
  rw [Cert.ReferenceIdeal.RefValue.result_apply, (hagree c).1, (hagree c).2.1, (hagree c).2.2.1, (hagree c).2.2.2.1,
    (hagree c).2.2.2.2.1, (hagree c).2.2.2.2.2]
  exact (result_apply m c b u).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
